-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S50000x128 : Shape := ⟨2, ![50000, 128]⟩
abbrev S2000x128 : Shape := ⟨2, ![2000, 128]⟩
abbrev S1x256 : Shape := ⟨2, ![1, 256]⟩
abbrev S850000x128 : Shape := ⟨2, ![850000, 128]⟩
abbrev S1x128 : Shape := ⟨2, ![1, 128]⟩

abbrev nBuf : Space → Nat
  | .hbm => 81
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S50000x128, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x128, .f32⟩
  | .hbm, ⟨73, _⟩ => ⟨S850000x1, .f32⟩
  | .hbm, ⟨74, _⟩ => ⟨S850000x128, .f32⟩
  | .hbm, ⟨75, _⟩ => ⟨S850000x128, .f32⟩
  | .hbm, ⟨76, _⟩ => ⟨S_, .f32⟩
  | .hbm, ⟨77, _⟩ => ⟨S50000x128, .f32⟩
  | .hbm, ⟨78, _⟩ => ⟨S850000x1, .i32⟩
  | .hbm, ⟨79, _⟩ => ⟨S50000x128, .f32⟩
  | .hbm, ⟨80, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256, .f32⟩
  | .local _ .vmem, ⟨8, _⟩ => ⟨S256x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  shapeCasts_S2000x128_S2000x128 : S2000x128.ShapeCasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x128, .f32⟩
  | .hbm, ⟨91, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Stages.lean ====
/-
  The host side of a two-layer graph convolution, stage by stage, as pure functions of arrays (at any float instance).
  Both programs compute these stages by the same host operations; only the dense stages between them differ (a
  pipelined kernel on one side, a whole matrix product and a broadcast sum on the other). Naming each shared stage as ONE
  function lets the two results be compared without ever opening a gather or a scatter-add.

  The graph has 50000 nodes and 850000 edges: the 800000 given ones followed by one self-loop per node.
    * `edgeEnds e r`    — row `r` of the given edge list followed by 0, 1, …, 49999 (the self-loops): an end of every edge;
    * `wrapCol s`       — an index vector with negative entries counted from the end (+50000), as a column;
    * `degNorm src dst` — per edge, dinv[src] · dinv[dst], where deg = the number of edges into a node (a scatter-add of
                          ones) and dinv = deg^(-1/2) where deg > 0, else 0;
    * `aggr256 h src dst nrm`, `aggr128 …` — per node, the sum over the edges INTO it of the source node's row of `h`
                          scaled by the edge's weight `nrm` (a gather, a product, a scatter-add into zeros).
-/
import proofs.«180320_j43224550868016_1_alg».proof.Proof.Gen.ReferenceIdeal
import Idealize.ShloMosaic.PureOps.Ideal

noncomputable section

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-- The sources of all edges: row 0 of the edge list, then the self-loops' 0 … 49999. -/
def edgeSrc (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000 : (⟨S800000, .i32⟩ : BufTy).Contents (Elt F))⟩, ⟨S50000, (iotaInDim S50000 32 0 : (⟨S50000, .i32⟩ : BufTy).Contents (Elt F))⟩] concatenates_S800000_S50000_S850000_d0

/-- The targets of all edges: row 1 of the edge list, then the self-loops' 0 … 49999. -/
def edgeDst (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000 : (⟨S800000, .i32⟩ : BufTy).Contents (Elt F))⟩, ⟨S50000, (iotaInDim S50000 32 0 : (⟨S50000, .i32⟩ : BufTy).Contents (Elt F))⟩] concatenates_S800000_S50000_S850000_d0

/-- A node-index vector with its negative entries counted from the end, as the one-column index array a gather takes. -/
def wrapCol (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32 : (⟨S_, .i32⟩ : BufTy).Contents (Elt F)) : (⟨S850000, .i32⟩ : BufTy).Contents (Elt F)) : (⟨S850000, .i1⟩ : BufTy).Contents (Elt F))
      (addi s (broadcastInDim S850000 ![] bcast_S_S850000 (constantI S_ 32 50000#32 : (⟨S_, .i32⟩ : BufTy).Contents (Elt F)) : (⟨S850000, .i32⟩ : BufTy).Contents (Elt F)) : (⟨S850000, .i32⟩ : BufTy).Contents (Elt F)) s : (⟨S850000, .i32⟩ : BufTy).Contents (Elt F))

/-- The in-degree of every node: ones scattered and added at the edges' targets. -/
def inDegree (dst : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32 : (⟨S_, .f32⟩ : BufTy).Contents (Elt F)) : (⟨S50000, .f32⟩ : BufTy).Contents (Elt F))
    (broadcastInDim S850000x1 ![0] bcast_S850000_S850000x1_0 dst : (⟨S850000x1, .i32⟩ : BufTy).Contents (Elt F))
    (broadcastInDim S850000 ![] bcast_S_S850000 (constant S_ .f32 0x3F800000#32 : (⟨S_, .f32⟩ : BufTy).Contents (Elt F)) : (⟨S850000, .f32⟩ : BufTy).Contents (Elt F))

/-- deg^(-1/2) where the degree is positive, zero elsewhere. -/
def invSqrtDeg (dst : (⟨S850000, .i32⟩ : BufTy).Contents (Elt F)) : (⟨S50000, .f32⟩ : BufTy).Contents (Elt F) :=
  select (cmpf .ogt (inDegree (F := F) dst) (broadcastInDim S50000 ![] bcast_S_S50000 (constant S_ .f32 0x00000000#32 : (⟨S_, .f32⟩ : BufTy).Contents (Elt F)) : (⟨S50000, .f32⟩ : BufTy).Contents (Elt F)) : (⟨S50000, .i1⟩ : BufTy).Contents (Elt F))
    (Host.rsqrt (inDegree (F := F) dst) : (⟨S50000, .f32⟩ : BufTy).Contents (Elt F))
    (broadcastInDim S50000 ![] bcast_S_S50000 (id (constant S_ .f32 0x00000000#32 : (⟨S_, .f32⟩ : BufTy).Contents (Elt F)) : (⟨S_, .f32⟩ : BufTy).Contents (Elt F)) : (⟨S50000, .f32⟩ : BufTy).Contents (Elt F))

/-- The symmetric normalisation of every edge: dinv at its source times dinv at its target. -/
def degNorm (src dst : (⟨S850000, .i32⟩ : BufTy).Contents (Elt F)) : (⟨S850000, .f32⟩ : BufTy).Contents (Elt F) :=
  mulf (Host.gather gather_S50000_S850000x1_S850000_n_0_n_n_0_1_1 (invSqrtDeg (F := F) dst) (wrapCol (F := F) src) : (⟨S850000, .f32⟩ : BufTy).Contents (Elt F))
    (Host.gather gather_S50000_S850000x1_S850000_n_0_n_n_0_1_1 (invSqrtDeg (F := F) dst) (wrapCol (F := F) dst) : (⟨S850000, .f32⟩ : BufTy).Contents (Elt F))

/-- One aggregation over 256 features: every node sums, over the edges into it, the source node's row of `h` scaled by the
    edge's weight. -/
def aggr256 (h : (⟨S50000x256, .f32⟩ : BufTy).Contents (Elt F)) (src dst : (⟨S850000, .i32⟩ : BufTy).Contents (Elt F)) (nrm : (⟨S850000, .f32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant S_ .f32 0x00000000#32 : (⟨S_, .f32⟩ : BufTy).Contents (Elt F)) : (⟨S50000x256, .f32⟩ : BufTy).Contents (Elt F))
    (broadcastInDim S850000x1 ![0] bcast_S850000_S850000x1_0 dst : (⟨S850000x1, .i32⟩ : BufTy).Contents (Elt F))
    (mulf (Host.gather gather_S50000x256_S850000x1_S850000x256_1_0_n_n_0_1_1256 h (wrapCol (F := F) src) : (⟨S850000x256, .f32⟩ : BufTy).Contents (Elt F))
      (broadcastInDim S850000x256 ![0, 1] bcast_S850000x1_S850000x256_0_1 (broadcastInDim S850000x1 ![0] bcast_S850000_S850000x1_0 nrm : (⟨S850000x1, .f32⟩ : BufTy).Contents (Elt F)) : (⟨S850000x256, .f32⟩ : BufTy).Contents (Elt F)) : (⟨S850000x256, .f32⟩ : BufTy).Contents (Elt F))

/-- The same aggregation over 128 features. -/
def aggr128 (h : (⟨S50000x128, .f32⟩ : BufTy).Contents (Elt F)) (src dst : (⟨S850000, .i32⟩ : BufTy).Contents (Elt F)) (nrm : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32 : (⟨S_, .f32⟩ : BufTy).Contents (Elt F)) : (⟨S50000x128, .f32⟩ : BufTy).Contents (Elt F))
    (broadcastInDim S850000x1 ![0] bcast_S850000_S850000x1_0 dst : (⟨S850000x1, .i32⟩ : BufTy).Contents (Elt F))
    (mulf (Host.gather gather_S50000x128_S850000x1_S850000x128_1_0_n_n_0_1_1128 h (wrapCol (F := F) src) : (⟨S850000x128, .f32⟩ : BufTy).Contents (Elt F))
      (broadcastInDim S850000x128 ![0, 1] bcast_S850000x1_S850000x128_0_1 (broadcastInDim S850000x1 ![0] bcast_S850000_S850000x1_0 nrm : (⟨S850000x1, .f32⟩ : BufTy).Contents (Elt F)) : (⟨S850000x128, .f32⟩ : BufTy).Contents (Elt F)) : (⟨S850000x128, .f32⟩ : BufTy).Contents (Elt F))

end Cert.Gcn

end
-- ==== Proof.Dense.lean ====
/-
  The two dense stages of a graph-convolution layer, at the extended reals, index by index:
    * `matProd x w`   — the matrix product: entry (r, c) is the sum over k of x(r, k) · w(k, c);
    * `biasRelu a b`  — a bias row added to every row of a matrix, then the maximum with zero.
  A kernel that computes a block of rows of either is computing the same entries: both are stated entry by entry, so a
  block of rows of the result depends only on the same rows of the first operand.
-/
import Idealize.ShloMosaic.Lib.ValueIdx
import Idealize.ShloMosaic.PureOps.Ideal.Laws

noncomputable section

open scoped BigOperators

namespace Cert.Gcn

open Idealize.ShloMosaic Idealize.ShloMosaic.ValueIdx

/-- The matrix product of an [n, k] and a [k, p] matrix of extended reals. -/
def matProd {n k p : Nat} (x : FVec Ideal ⟨2, ![n, k]⟩ .f32) (w : FVec Ideal ⟨2, ![k, p]⟩ .f32) : FVec Ideal ⟨2, ![n, p]⟩ .f32 :=
  fun i => ∑ l : Fin k, x (ix2 (i 0) l) * w (ix2 l (i 1))

theorem matProd_apply {n k p : Nat} (x : FVec Ideal ⟨2, ![n, k]⟩ .f32) (w : FVec Ideal ⟨2, ![k, p]⟩ .f32) (r : Fin n) (c : Fin p) :
    matProd x w (ix2 r c) = ∑ l : Fin k, x (ix2 r l) * w (ix2 l c) := rfl

/-- A bias row added to every row, then the maximum with zero. -/
def biasRelu {n p : Nat} (a : FVec Ideal ⟨2, ![n, p]⟩ .f32) (b : FVec Ideal ⟨1, ![p]⟩ .f32) : FVec Ideal ⟨2, ![n, p]⟩ .f32 :=
  fun i => max (a i + b (ix1 (i 1))) 0

theorem biasRelu_apply {n p : Nat} (a : FVec Ideal ⟨2, ![n, p]⟩ .f32) (b : FVec Ideal ⟨1, ![p]⟩ .f32) (r : Fin n) (c : Fin p) :
    biasRelu a b (ix2 r c) = max (a (ix2 r c) + b (ix1 c)) 0 := rfl

/-! ## Recognising an entry: the same arithmetic of equal operands is the stage's entry -/

/-- A sum of products whose factors are the operands' entries on row `i 0` and column `i 1` is the product's entry. -/
theorem matProd_of_factors {n k p : Nat} (x : FVec Ideal ⟨2, ![n, k]⟩ .f32) (w : FVec Ideal ⟨2, ![k, p]⟩ .f32)
    (i : (⟨2, ![n, p]⟩ : Shape).Idx) (f g : Fin k → Ideal .f32)
    (hf : ∀ l, f l = x (ix2 (i 0) l)) (hg : ∀ l, g l = w (ix2 l (i 1))) :
    ∑ l : Fin k, f l * g l = matProd x w i :=
  Finset.sum_congr rfl fun l _ => by rw [hf l, hg l]

/-- A sum plus a bias entry, or zero if that is larger, of equal operands is `biasRelu`'s entry. -/
theorem biasRelu_of_terms {n p : Nat} (a : FVec Ideal ⟨2, ![n, p]⟩ .f32) (b : FVec Ideal ⟨1, ![p]⟩ .f32)
    (i : (⟨2, ![n, p]⟩ : Shape).Idx) (u v : Ideal .f32) (hu : u = a i) (hv : v = b (ix1 (i 1))) :
    max (u + v) 0 = biasRelu a b i := by
  rw [hu, hv]; rfl

/-- The fused form: a sum of products whose left factors are activated entries of row `i 0`. -/
theorem matProd_biasRelu_of_factors {n k p : Nat} (a : FVec Ideal ⟨2, ![n, k]⟩ .f32) (b : FVec Ideal ⟨1, ![k]⟩ .f32)
    (w : FVec Ideal ⟨2, ![k, p]⟩ .f32) (i : (⟨2, ![n, p]⟩ : Shape).Idx) (f h g : Fin k → Ideal .f32)
    (hf : ∀ l, f l = a (ix2 (i 0) l)) (hh : ∀ l, h l = b (ix1 l)) (hg : ∀ l, g l = w (ix2 l (i 1))) :
    ∑ l : Fin k, max (f l + h l) 0 * g l = matProd (biasRelu a b) w i :=
  Finset.sum_congr rfl fun l _ => by rw [hf l, hh l, hg l]; rfl

end Cert.Gcn

end
-- ==== Proof.Model.lean ====
/-
  The whole network as ONE function of the six argument arrays, at the extended reals: two graph-convolution layers,
  each a matrix product with the layer's weights, an aggregation over the edges (with the symmetric degree
  normalisation), a bias and a maximum with zero. Both programs are shown to end at this function of their arguments.
-/
import proofs.«180320_j43224550868016_1_alg».proof.Proof.Stages
import proofs.«180320_j43224550868016_1_alg».proof.Proof.Dense

noncomputable section

namespace Cert.Gcn

open Cert.ReferenceIdeal Cert.ReferenceIdeal.Gen Idealize.ShloMosaic Idealize.ShloMosaic.TcCoe

/-- One layer over 256 output features: relu(Â · (h · w) + b), Â the normalised adjacency with self-loops. -/
def layer256 (h : (⟨S50000x256, .f32⟩ : BufTy).Contents (Elt Ideal)) (e : (⟨S2x800000, .i32⟩ : BufTy).Contents (Elt Ideal)) (w : (⟨S256x256, .f32⟩ : BufTy).Contents (Elt Ideal)) (b : (⟨S256, .f32⟩ : BufTy).Contents (Elt Ideal)) : (⟨S50000x256, .f32⟩ : BufTy).Contents (Elt Ideal) :=
  biasRelu (aggr256 (F := Ideal) (matProd h w) (edgeSrc e) (edgeDst e) (degNorm (edgeSrc e) (edgeDst e))) b

/-- One layer over 128 output features. -/
def layer128 (h : (⟨S50000x256, .f32⟩ : BufTy).Contents (Elt Ideal)) (e : (⟨S2x800000, .i32⟩ : BufTy).Contents (Elt Ideal)) (w : (⟨S256x128, .f32⟩ : BufTy).Contents (Elt Ideal)) (b : (⟨S128, .f32⟩ : BufTy).Contents (Elt Ideal)) : (⟨S50000x128, .f32⟩ : BufTy).Contents (Elt Ideal) :=
  biasRelu (aggr128 (F := Ideal) (matProd h w) (edgeSrc e) (edgeDst e) (degNorm (edgeSrc e) (edgeDst e))) b

/-- The two layers, one after the other. -/
def gcn (x : (⟨S50000x256, .f32⟩ : BufTy).Contents (Elt Ideal)) (e : (⟨S2x800000, .i32⟩ : BufTy).Contents (Elt Ideal)) (w1 : (⟨S256x256, .f32⟩ : BufTy).Contents (Elt Ideal)) (b1 : (⟨S256, .f32⟩ : BufTy).Contents (Elt Ideal))
    (w2 : (⟨S256x128, .f32⟩ : BufTy).Contents (Elt Ideal)) (b2 : (⟨S128, .f32⟩ : BufTy).Contents (Elt Ideal)) : (⟨S50000x128, .f32⟩ : BufTy).Contents (Elt Ideal) :=
  layer128 (layer256 x e w1 b1) e w2 b2

end Cert.Gcn

end
-- ==== Proof.RefValue.lean ====
/-
  The reference program's result as a composition of named stages. The generated reading of the reference gives its
  result as one stage per host operation; here the operations are grouped: the edge lists and the per-edge weights (which
  depend on the edge list alone), the two aggregations (`Cert.Gcn.aggr256`, `aggr128`: the same host operations in both
  programs, never opened), and — at the extended reals — the dense stages: a `dot_general` is the matrix product entry by
  entry, and a bias broadcast along the rows, a sum and a maximum with a zero splat are `biasRelu` entry by entry.
-/
import proofs.«180320_j43224550868016_1_alg».proof.Proof.RefRead
import proofs.«180320_j43224550868016_1_alg».proof.Proof.Stages
import proofs.«180320_j43224550868016_1_alg».proof.Proof.Dense
import proofs.«180320_j43224550868016_1_alg».proof.Proof.Model

noncomputable section

namespace Cert.ReferenceIdeal.RefValue

open Cert.ReferenceIdeal Cert.ReferenceIdeal.Gen Cert.ReferenceIdeal.ReadP Cert.Gcn
open Idealize.ShloMosaic Idealize.ShloMosaic.TcCoe Idealize.ShloMosaic.ValueIdx

variable {F : FTy → Type} [FloatOps F]

/-! ## The shared host stages (any float instance): the reference's operations, grouped -/

theorem src_eq (x1 : (⟨S2x800000, .i32⟩ : BufTy).Contents (Elt F)) : val_main_v3 (F := F) x1 = edgeSrc x1 := rfl
theorem dst_eq (x1 : (⟨S2x800000, .i32⟩ : BufTy).Contents (Elt F)) : val_main_v6 (F := F) x1 = edgeDst x1 := rfl
theorem norm_eq (x1 : (⟨S2x800000, .i32⟩ : BufTy).Contents (Elt F)) : val_main_v29 (F := F) x1 = degNorm (edgeSrc x1) (edgeDst x1) := rfl

/-- The first aggregation is `aggr256` of the first product. -/
theorem agg1_eq (x0 : (⟨S50000x256, .f32⟩ : BufTy).Contents (Elt F)) (x1 : (⟨S2x800000, .i32⟩ : BufTy).Contents (Elt F)) (x2 : (⟨S256x256, .f32⟩ : BufTy).Contents (Elt F)) :
    val_main_v43 (F := F) x0 x1 x2 = aggr256 (val_main_v30 (F := F) x0 x2) (edgeSrc x1) (edgeDst x1) (degNorm (edgeSrc x1) (edgeDst x1)) := rfl

/-- The second aggregation is `aggr128` of the second product. -/
theorem agg2_eq (x0 : (⟨S50000x256, .f32⟩ : BufTy).Contents (Elt F)) (x1 : (⟨S2x800000, .i32⟩ : BufTy).Contents (Elt F)) (x2 : (⟨S256x256, .f32⟩ : BufTy).Contents (Elt F)) (x3 : (⟨S256, .f32⟩ : BufTy).Contents (Elt F)) (x4 : (⟨S256x128, .f32⟩ : BufTy).Contents (Elt F)) :
    val_main_v61 (F := F) x0 x1 x2 x3 x4 = aggr128 (val_main_v48 (F := F) x0 x1 x2 x3 x4) (edgeSrc x1) (edgeDst x1) (degNorm (edgeSrc x1) (edgeDst x1)) := rfl

/-! ## The dense stages at the extended reals -/

/-- The reference's first `dot_general` is the matrix product. -/
theorem dot1_eq (x0 : (⟨S50000x256, .f32⟩ : BufTy).Contents (Elt Ideal)) (x2 : (⟨S256x256, .f32⟩ : BufTy).Contents (Elt Ideal)) :
    val_main_v30 (F := Ideal) x0 x2 = matProd x0 x2 := by
  funext i
  rw [val_main_v30_apply]
  show _ = ∑ l : Fin 256, x0 (ix2 (i 0) l) * x2 (ix2 l (i 1))
  refine Finset.sum_congr rfl fun k _ => ?_
  have el : lidx_main_v30 i k = ix2 (i 0) k := funext fun a => by match a with | ⟨0, _⟩ => rfl | ⟨1, _⟩ => rfl
  have er : ridx_main_v30 i k = ix2 k (i 1) := funext fun a => by match a with | ⟨0, _⟩ => rfl | ⟨1, _⟩ => rfl
  rw [el, er]
  rfl

/-- A bias row broadcast along the rows and added, then the maximum with the zero splat: `biasRelu` (256 columns). -/
theorem biasRelu256_eq (a : (⟨S50000x256, .f32⟩ : BufTy).Contents (Elt Ideal)) (x3 : (⟨S256, .f32⟩ : BufTy).Contents (Elt Ideal)) :
    maximumf (addf a (val_main_v45 (F := Ideal) x3)) (val_main_call1_v0 (F := Ideal)) = biasRelu a x3 := by
  funext i
  show max (a i + val_main_v45 (F := Ideal) x3 i) (val_main_call1_v0 (F := Ideal) i) = max (a i + x3 (ix1 (i 1))) 0
  rw [val_main_v45_apply, val_main_v44_apply, val_main_call1_v0_apply, val_main_call1_cst_apply]
  have e : idx_main_v44 (idx_main_v45 i) = ix1 (i 1) := funext fun d => by match d with | ⟨0, _⟩ => rfl
  rw [e]
  show max _ (Ideal.ofBits .f32 0x00000000#32) = _
  rw [Ideal.ofBits_zero_f32]
  rfl

/-- The reference's second `dot_general` is the matrix product. -/
theorem dot2_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) :
    val_main_v48 (F := Ideal) x0 x1 x2 x3 x4 = matProd (val_main_v47 (F := Ideal) x0 x1 x2 x3) x4 := by
  funext i
  rw [val_main_v48_apply]
  show _ = ∑ l : Fin 256, val_main_v47 (F := Ideal) x0 x1 x2 x3 (ix2 (i 0) l) * x4 (ix2 l (i 1))
  refine Finset.sum_congr rfl fun k _ => ?_
  have el : lidx_main_v48 i k = ix2 (i 0) k := funext fun a => by match a with | ⟨0, _⟩ => rfl | ⟨1, _⟩ => rfl
  have er : ridx_main_v48 i k = ix2 k (i 1) := funext fun a => by match a with | ⟨0, _⟩ => rfl | ⟨1, _⟩ => rfl
  rw [el, er]
  rfl

/-- The same for the second layer's 128 columns. -/
theorem biasRelu128_eq (a : (⟨S50000x128, .f32⟩ : BufTy).Contents (Elt Ideal)) (x5 : (⟨S128, .f32⟩ : BufTy).Contents (Elt Ideal)) :
    maximumf (addf a (val_main_v63 (F := Ideal) x5)) (val_main_call2_v0 (F := Ideal)) = biasRelu a x5 := by
  funext i
  show max (a i + val_main_v63 (F := Ideal) x5 i) (val_main_call2_v0 (F := Ideal) i) = max (a i + x5 (ix1 (i 1))) 0
  rw [val_main_v63_apply, val_main_v62_apply, val_main_call2_v0_apply, val_main_call2_cst_apply]
  have e : idx_main_v62 (idx_main_v63 i) = ix1 (i 1) := funext fun d => by match d with | ⟨0, _⟩ => rfl
  rw [e]
  show max _ (Ideal.ofBits .f32 0x00000000#32) = _
  rw [Ideal.ofBits_zero_f32]
  rfl

/-! ## The result -/

/-- The first layer's activation. -/
theorem layer1_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) :
    val_main_v47 (F := Ideal) x0 x1 x2 x3 = layer256 x0 x1 x2 x3 := by
  unfold val_main_v47 val_main_v46 layer256
  rw [biasRelu256_eq, agg1_eq, dot1_eq]

/-- The reference's result is the network of its arguments. -/
theorem result_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) :
    val_main_v65 (F := Ideal) x0 x1 x2 x3 x4 x5 = gcn x0 x1 x2 x3 x4 x5 := by
  unfold val_main_v65 val_main_v64 gcn layer128
  rw [biasRelu128_eq, agg2_eq, dot2_eq, layer1_eq]

end Cert.ReferenceIdeal.RefValue

end
-- ==== Proof.KernelRun.lean ====
/-
  The idealized kernel program's run with its RESULT named. The program is three pipelined kernel launches among
  stretches of host operations; its generated frame run carries, at every segment boundary, the contents of every
  buffer (`Gen.W0 … Gen.W8`) and ends with every unscoped buffer at the last boundary's contents `Gen.W8`. The frame
  theorem keeps of that only the six argument arrays; here the same run is read once more, keeping also the result
  buffer: it ends at `Gen.W8 m ρ c` of the result's reference, which the value lemmas then open region by region.
-/
import proofs.«180320_j43224550868016_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel program terminates, nothing faulting, with the result buffer
    at the last boundary's contents and the argument arrays as launched. -/
theorem run_result : θ_run defs (onTc (τ := τ) (main (F := F))) ⟨m, fun _ => 0, ρ⟩ (fun r => ∀ c : Dev nD,
      r.2.mem ((c.tc : Thread nD τ).loc main_v58) = W8 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.KernelStages.lean ====
/-
  The idealized kernel program's host operations between its launches, read back: from ANY contents `Vv` of the buffers,
  after a stretch of host operations each buffer the stretch writes holds the stretch's function of the buffers it reads
  and every other buffer holds what it held. The stretches are the reference's own host operations, so their functions
  are the named stages of `Cert.Gcn` (the edge lists with their self-loops, the per-edge normalisation, the two
  aggregations), never opened here.
-/
import proofs.«180320_j43224550868016_1_alg».proof.Proof.Gen.KernelIdeal.Launch
import proofs.«180320_j43224550868016_1_alg».proof.Proof.Stages
import Idealize.ShloMosaic.Lib.StableHlo.Run

set_option maxRecDepth 16384

noncomputable section

namespace Cert.KernelIdeal.HostStages

open Idealize.ShloMosaic Idealize.ShloMosaic.TcCoe Idealize.SL.Sem Idealize.ShloMosaic.StableHlo
open Cert.KernelIdeal Cert.KernelIdeal.Gen Cert.Gcn

variable {F : FTy → Type} [FloatOps F] (Vv : Valuation τ sig (Elt F))

/-! ## Before the first launch: the edge lists and the normalisation -/

set_option maxHeartbeats 4000000 in
/-- The edges' sources. -/
theorem src_after : after hostOps0_2 (after hostOps0_1 (after hostOps0 Vv)) (Proc.devRef .tc main_v3) = edgeSrc (F := F) (Vv (Proc.devRef .tc main_arg1)) := by
  after_results_simp
  rfl

set_option maxHeartbeats 4000000 in
/-- The edges' targets. -/
theorem dst_after : after hostOps0_2 (after hostOps0_1 (after hostOps0 Vv)) (Proc.devRef .tc main_v6) = edgeDst (F := F) (Vv (Proc.devRef .tc main_arg1)) := by
  after_results_simp
  rfl

set_option maxHeartbeats 8000000 in
/-- The per-edge normalisation. -/
theorem norm_after : after hostOps0_2 (after hostOps0_1 (after hostOps0 Vv)) (Proc.devRef .tc main_v29)
    = degNorm (F := F) (edgeSrc (F := F) (Vv (Proc.devRef .tc main_arg1))) (edgeDst (F := F) (Vv (Proc.devRef .tc main_arg1))) := by
  after_results_simp
  rfl

set_option maxHeartbeats 4000000 in
/-- The stretch leaves `main_arg0` as it was. -/
theorem kept_first_main_arg0 : after hostOps0_2 (after hostOps0_1 (after hostOps0 Vv)) (Proc.devRef .tc main_arg0) = Vv (Proc.devRef .tc main_arg0) := by
  after_results_simp

set_option maxHeartbeats 4000000 in
/-- The stretch leaves `main_arg2` as it was. -/
theorem kept_first_main_arg2 : after hostOps0_2 (after hostOps0_1 (after hostOps0 Vv)) (Proc.devRef .tc main_arg2) = Vv (Proc.devRef .tc main_arg2) := by
  after_results_simp

set_option maxHeartbeats 4000000 in
/-- The stretch leaves `main_arg3` as it was. -/
theorem kept_first_main_arg3 : after hostOps0_2 (after hostOps0_1 (after hostOps0 Vv)) (Proc.devRef .tc main_arg3) = Vv (Proc.devRef .tc main_arg3) := by
  after_results_simp

set_option maxHeartbeats 4000000 in
/-- The stretch leaves `main_arg4` as it was. -/
theorem kept_first_main_arg4 : after hostOps0_2 (after hostOps0_1 (after hostOps0 Vv)) (Proc.devRef .tc main_arg4) = Vv (Proc.devRef .tc main_arg4) := by
  after_results_simp

set_option maxHeartbeats 4000000 in
/-- The stretch leaves `main_arg5` as it was. -/
theorem kept_first_main_arg5 : after hostOps0_2 (after hostOps0_1 (after hostOps0 Vv)) (Proc.devRef .tc main_arg5) = Vv (Proc.devRef .tc main_arg5) := by
  after_results_simp

/-! ## Between the first and the second launch: the aggregation over 256 features -/

set_option maxHeartbeats 4000000 in
/-- The first aggregation, of whatever the first launch left in its result. -/
theorem agg_after : after hostOps1 Vv (Proc.devRef .tc main_v43)
    = aggr256 (F := F) (Vv (Proc.devRef .tc main_v30)) (Vv (Proc.devRef .tc main_v3)) (Vv (Proc.devRef .tc main_v6)) (Vv (Proc.devRef .tc main_v29)) := by
  after_results_simp
  rfl

set_option maxHeartbeats 4000000 in
/-- The stretch leaves `main_v3` as it was. -/
theorem kept_second_main_v3 : after hostOps1 Vv (Proc.devRef .tc main_v3) = Vv (Proc.devRef .tc main_v3) := by
  after_results_simp

set_option maxHeartbeats 4000000 in
/-- The stretch leaves `main_v6` as it was. -/
theorem kept_second_main_v6 : after hostOps1 Vv (Proc.devRef .tc main_v6) = Vv (Proc.devRef .tc main_v6) := by
  after_results_simp

set_option maxHeartbeats 4000000 in
/-- The stretch leaves `main_v29` as it was. -/
theorem kept_second_main_v29 : after hostOps1 Vv (Proc.devRef .tc main_v29) = Vv (Proc.devRef .tc main_v29) := by
  after_results_simp

set_option maxHeartbeats 4000000 in
/-- The stretch leaves `main_arg3` as it was. -/
theorem kept_second_main_arg3 : after hostOps1 Vv (Proc.devRef .tc main_arg3) = Vv (Proc.devRef .tc main_arg3) := by
  after_results_simp

set_option maxHeartbeats 4000000 in
/-- The stretch leaves `main_arg4` as it was. -/
theorem kept_second_main_arg4 : after hostOps1 Vv (Proc.devRef .tc main_arg4) = Vv (Proc.devRef .tc main_arg4) := by
  after_results_simp

set_option maxHeartbeats 4000000 in
/-- The stretch leaves `main_arg5` as it was. -/
theorem kept_second_main_arg5 : after hostOps1 Vv (Proc.devRef .tc main_arg5) = Vv (Proc.devRef .tc main_arg5) := by
  after_results_simp

/-! ## Between the second and the third launch: the aggregation over 128 features -/

set_option maxHeartbeats 4000000 in
/-- The second aggregation, of whatever the second launch left in its result. -/
theorem agg_after' : after hostOps2 Vv (Proc.devRef .tc main_v57)
    = aggr128 (F := F) (Vv (Proc.devRef .tc main_v44)) (Vv (Proc.devRef .tc main_v3)) (Vv (Proc.devRef .tc main_v6)) (Vv (Proc.devRef .tc main_v29)) := by
  after_results_simp
  rfl

set_option maxHeartbeats 4000000 in
/-- The stretch leaves `main_arg5` as it was. -/
theorem kept_third_main_arg5 : after hostOps2 Vv (Proc.devRef .tc main_arg5) = Vv (Proc.devRef .tc main_arg5) := by
  after_results_simp

end Cert.KernelIdeal.HostStages

end
-- ==== Proof.MatmulLaunch.lean ====
/-
  The first launch: a [50000, 256] matrix times a [256, 256] matrix, 2000 rows per grid point, the whole right operand
  staged at every point. Rounding the operands to bfloat16 is the identity at the extended reals and the matrix unit's
  product into a zero accumulator is the plain sum over the contracted axis, so a point's block of the result is the
  same 2000 rows of the matrix product: every block is a block of ONE function of the arrays the launch finds —
  `matProd` — and the 25 blocks tile the result.
-/
import proofs.«180320_j43224550868016_1_alg».proof.Proof.Gen.KernelIdeal.Frame
import proofs.«180320_j43224550868016_1_alg».proof.Proof.Dense
import Idealize.ShloMosaic.Lib.Pipeline.Value
import Idealize.ShloMosaic.Lib.ValueLayout

set_option maxRecDepth 16384

noncomputable section

namespace Cert.KernelIdeal.MatmulLaunch

open Idealize.ShloMosaic Idealize.ShloMosaic.TcCoe Idealize.SL.Sem Idealize.ShloMosaic.ValueIdx
open Idealize.ShloMosaic.Pipeline (Dat)
open Cert.KernelIdeal Cert.KernelIdeal.Gen Cert.Gcn

-- the contents of the TensorCore's buffers when the launch is entered: every statement is at any such contents
variable (V : (c : Dev nD) → (b : Ref sig .tc) → Buf (Elt Ideal) ((c : Thread nD τ).loc b))

theorem zero_offsets2 : (![0, 0] : Fin 2 → Nat) = fun _ => 0 := funext fun a => by fin_cases a <;> rfl

/-- The contraction's operand coordinates: the left operand is read at (row, k), the right at (k, column). -/
theorem lhs_row (i : S2000x256.Idx) (k : dot_S2000x256_S256x256_S2000x256_1_0_0_1_n_n.contr.Idx) : (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_col (i : S2000x256.Idx) (k : dot_S2000x256_S256x256_S2000x256_1_0_0_1_n_n.contr.Idx) : (dot_S2000x256_S256x256_S2000x256_1_0_0_1_n_n.lhsIdx i k 1).val = (k ⟨0, by decide⟩).val :=
  dot_S2000x256_S256x256_S2000x256_1_0_0_1_n_n.lhsIdx_val_of_single rfl i k
theorem rhs_row (i : S2000x256.Idx) (k : dot_S2000x256_S256x256_S2000x256_1_0_0_1_n_n.contr.Idx) : (dot_S2000x256_S256x256_S2000x256_1_0_0_1_n_n.rhsIdx i k 0).val = (k ⟨0, by decide⟩).val :=
  dot_S2000x256_S256x256_S2000x256_1_0_0_1_n_n.rhsIdx_val_of_single rfl i k
theorem rhs_col (i : S2000x256.Idx) (k : dot_S2000x256_S256x256_S2000x256_1_0_0_1_n_n.contr.Idx) : (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's stored value at entry (r, q) of a block: the sum over k of the left block at (r, k) times the right
    operand at (k, q). -/
theorem stored_apply (x : Vec Ideal S2000x256 .f32) (w : Vec Ideal S256x256 .f32) (r : Fin 2000) (q : Fin 256) :
    k0_pay1 (F := Ideal) x w (ix2 r q) = ∑ l : Fin 256, x (ix2 r l) * w (ix2 l q) := by
  show FloatOps.matmul dot_S2000x256_S256x256_S2000x256_1_0_0_1_n_n none (truncf (F := Ideal) .bf16 x bitsLt_bf16_f32) (truncf (F := Ideal) .bf16 w bitsLt_bf16_f32)
    (constant S2000x256 .f32 0x00000000#32) (ix2 r q) = _
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 r q) ((ValueIdx.contrEquiv1 dot_S2000x256_S256x256_S2000x256_1_0_0_1_n_n 256 rfl rfl).symm k) = ix2 r k := funext fun a => Fin.ext (by
    match a with
    | ⟨0, _⟩ => exact lhs_row _ _
    | ⟨1, _⟩ => exact (lhs_col _ _).trans hk)
  have er : dot_S2000x256_S256x256_S2000x256_1_0_0_1_n_n.rhsIdx (ix2 r q) ((ValueIdx.contrEquiv1 dot_S2000x256_S256x256_S2000x256_1_0_0_1_n_n 256 rfl rfl).symm k) = ix2 k q := funext fun a => Fin.ext (by
    match a with
    | ⟨0, _⟩ => exact (rhs_row _ _).trans hk
    | ⟨1, _⟩ => exact rhs_col _ _)
  rw [el, er]
  rfl

/-- The windows' block indices over the grid: the left operand and the result move together, one block of rows per
    point; the right operand stays. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every block of 2000 rows is some point's. -/
theorem block_onto : ∀ q0 : Fin 25, ∃ t : Fin cfg0.N, win0_2.index t = ![q0.val, 0] :=
  (by decide +kernel : ∀ q0 : Fin 25, ∃ t : Fin grid0.N, win0_2.index t = ![q0.val, 0])

/-- What point `t` writes back is block `t` of the matrix product of the two operands the launch found. -/
theorem flushed_eq (c : Dev nD) (t : Fin cfg0.N) :
    (dat0 V c).flushed 2 t = ((cfg0.win 2).blk t).view.read (Elt Ideal) (matProd (n := 50000) (k := 256) (p := 256) (V c main_arg0) (V c main_arg2)) := by
  show (cfg0.win 2).cut (grid0.coords t) ((dat0 V c).after 2 t) = _
  rw [after0_2]
  unfold out0_2
  rw [View.canon_unit_zero zero_offsets2]
  simp only [View.ld_unit_zero (S := S2000x256) zero_offsets2, View.ld_unit_zero (S := S256x256) zero_offsets2]
  funext j
  obtain ⟨r, q, rfl⟩ : ∃ (r : Fin 2000) (q : Fin 256), j = ix2 r q := ⟨j 0, j 1, eq_ix2 j⟩
  refine (stored_apply (iblk0 V c 0 t) (iblk0 V c 1 t) r q).trans ?_
  obtain ⟨e0, e1, e2, e3, e4, e5⟩ := block_indices t
  refine matProd_of_factors (n := 50000) (k := 256) (p := 256) (V c main_arg0) (V c main_arg2) (((cfg0.win 2).blk t).view.emb (ix2 r q))
    (fun l => iblk0 V c 0 t (ix2 r l)) (fun l => iblk0 V c 1 t (ix2 l q)) (fun l => ?_) (fun l => ?_)
  · show V c main_arg0 (((cfg0.win 0).blk t).view.emb (ix2 r l)) = V c main_arg0 (ix2 (((cfg0.win 2).blk t).view.emb (ix2 r q) 0) l)
    refine congrArg (V c main_arg0) ?_
    funext a; apply Fin.ext
    match a with
    | ⟨0, _⟩ => show win0_0.index t (0 : Fin 2) * 2000 + 1 * r.val = win0_2.index t (0 : Fin 2) * 2000 + 1 * r.val; omega
    | ⟨1, _⟩ => show win0_0.index t (1 : Fin 2) * 256 + 1 * l.val = l.val; omega
  · show V c main_arg2 (((cfg0.win 1).blk t).view.emb (ix2 l q)) = V c main_arg2 (ix2 l (((cfg0.win 2).blk t).view.emb (ix2 r q) 1))
    refine congrArg (V c main_arg2) ?_
    funext a; apply Fin.ext
    match a with
    | ⟨0, _⟩ => show win0_1.index t (0 : Fin 2) * 256 + 1 * l.val = l.val; omega
    | ⟨1, _⟩ => show win0_1.index t (1 : Fin 2) * 256 + 1 * q.val = win0_2.index t (1 : Fin 2) * 256 + 1 * q.val; omega

/-- An index of the result is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- The 25 blocks of 2000 rows cover the result: row `r` is in the block of point `r / 2000`. -/
theorem covered (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := block_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the launch the result array holds the matrix product of the two operands as the launch found them. -/
theorem array_eq (c : Dev nD) :
    (dat0 V c).arrAt 2 cfg0.N = matProd (n := 50000) (k := 256) (p := 256) (V c main_arg0) (V c main_arg2) :=
  (dat0 V c).arrAt_eq_of_cover 2 _ (fun t _ => flushed_eq V c t) covered

end Cert.KernelIdeal.MatmulLaunch

end
-- ==== Proof.FusedLaunch.lean ====
/-
  The second launch: to 2000 rows of a [50000, 256] matrix the body adds a bias row, takes the maximum with zero, and
  multiplies the result by a [256, 128] matrix staged whole. Rounding to bfloat16 is the identity at the extended reals and
  the matrix unit's product into a zero accumulator is the plain sum, so a point's block of the result is the same 2000
  rows of `matProd (biasRelu a b) w`: every block is a block of that ONE function of the arrays the launch finds, and the 25
  blocks tile the result.
-/
import proofs.«180320_j43224550868016_1_alg».proof.Proof.Gen.KernelIdeal.Frame
import proofs.«180320_j43224550868016_1_alg».proof.Proof.Dense
import Idealize.ShloMosaic.Lib.Pipeline.Value
import Idealize.ShloMosaic.Lib.ValueLayout

set_option maxRecDepth 16384

noncomputable section

namespace Cert.KernelIdeal.FusedLaunch

open Idealize.ShloMosaic Idealize.ShloMosaic.TcCoe Idealize.SL.Sem Idealize.ShloMosaic.ValueIdx
open Idealize.ShloMosaic.Pipeline (Dat)
open Cert.KernelIdeal Cert.KernelIdeal.Gen Cert.Gcn

-- the contents of the TensorCore's buffers when the launch is entered: every statement is at any such contents
variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a; rfl

/-- The contraction's operand coordinates: the left operand is read at (row, k), the right at (k, column). -/
theorem lhs_row (i : S2000x128.Idx) (k : dot_S2000x256_S256x128_S2000x128_1_0_0_1_n_n.contr.Idx) : (dot_S2000x256_S256x128_S2000x128_1_0_0_1_n_n.lhsIdx i k 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_col (i : S2000x128.Idx) (k : dot_S2000x256_S256x128_S2000x128_1_0_0_1_n_n.contr.Idx) : (dot_S2000x256_S256x128_S2000x128_1_0_0_1_n_n.lhsIdx i k 1).val = (k ⟨0, by decide⟩).val :=
  dot_S2000x256_S256x128_S2000x128_1_0_0_1_n_n.lhsIdx_val_of_single rfl i k
theorem rhs_row (i : S2000x128.Idx) (k : dot_S2000x256_S256x128_S2000x128_1_0_0_1_n_n.contr.Idx) : (dot_S2000x256_S256x128_S2000x128_1_0_0_1_n_n.rhsIdx i k 0).val = (k ⟨0, by decide⟩).val :=
  dot_S2000x256_S256x128_S2000x128_1_0_0_1_n_n.rhsIdx_val_of_single rfl i k
theorem rhs_col (i : S2000x128.Idx) (k : dot_S2000x256_S256x128_S2000x128_1_0_0_1_n_n.contr.Idx) : (dot_S2000x256_S256x128_S2000x128_1_0_0_1_n_n.rhsIdx i k 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The body's stored value at entry (r, q) of a block: the sum over k of the activated entry (r, k) — the block's entry
    plus the bias at k, or zero if that is larger — times the weight at (k, q). -/
theorem stored_apply (b : Vec Ideal S256 .f32) (a : Vec Ideal S2000x256 .f32) (w : Vec Ideal S256x128 .f32) (r : Fin 2000) (q : Fin 128) :
    k1_pay1 (F := Ideal) b a w (ix2 r q) = ∑ l : Fin 256, max (a (ix2 r l) + b (ix1 l)) 0 * w (ix2 l q) := by
  show FloatOps.matmul dot_S2000x256_S256x128_S2000x128_1_0_0_1_n_n none
    (truncf (F := Ideal) .bf16 (maximumf (addf (shapeCast S2000x256 a shapeCasts_S2000x256_S2000x256)
      (broadcastTo S2000x256 (shapeCast S1x256 b shapeCasts_S256_S1x256) broadcasts_S1x256_S2000x256))
      (broadcast S2000x256 (Scalar.ofBits (F := Ideal) .f32 0x00000000#32))) bitsLt_bf16_f32)
    (truncf (F := Ideal) .bf16 w bitsLt_bf16_f32) (constant S2000x128 .f32 0x00000000#32) (ix2 r q) = _
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 r q) ((ValueIdx.contrEquiv1 dot_S2000x256_S256x128_S2000x128_1_0_0_1_n_n 256 rfl rfl).symm k) = ix2 r k := funext fun a => Fin.ext (by
    match a with
    | ⟨0, _⟩ => exact lhs_row _ _
    | ⟨1, _⟩ => exact (lhs_col _ _).trans hk)
  have er : dot_S2000x256_S256x128_S2000x128_1_0_0_1_n_n.rhsIdx (ix2 r q) ((ValueIdx.contrEquiv1 dot_S2000x256_S256x128_S2000x128_1_0_0_1_n_n 256 rfl rfl).symm k) = ix2 k q := funext fun a => Fin.ext (by
    match a with
    | ⟨0, _⟩ => exact (rhs_row _ _).trans hk
    | ⟨1, _⟩ => exact rhs_col _ _)
  rw [el, er]
  show max (shapeCast S2000x256 a shapeCasts_S2000x256_S2000x256 (ix2 r k)
      + broadcastTo S2000x256 (shapeCast S1x256 b shapeCasts_S256_S1x256) broadcasts_S1x256_S2000x256 (ix2 r k)) (Ideal.ofBits .f32 0x00000000#32)
    * w (ix2 k q) = _
  rw [shapeCast_self, broadcastTo_1b_ab_apply, shapeCast_a_1a_apply, Ideal.ofBits_zero_f32]

/-- The windows' block indices over the grid: the matrix and the result move together, one block of rows per point; the
    bias and the weights stay. -/
theorem block_indices : ∀ t : Fin cfg1.N, win1_0.index t (0 : Fin 2) = win1_3.index t (0 : Fin 2)
    ∧ win1_0.index t (1 : Fin 2) = 0
    ∧ win1_1.index t (0 : Fin 1) = 0
    ∧ win1_2.index t (0 : Fin 2) = 0
    ∧ win1_2.index t (1 : Fin 2) = 0
    ∧ win1_3.index t (1 : Fin 2) = 0
    ∧ win1_3.index t (0 : Fin 2) ≤ 24 :=
  (by decide +kernel : ∀ t : Fin grid1.N, _)

/-- Every block of 2000 rows is some point's. -/
theorem block_onto : ∀ q0 : Fin 25, ∃ t : Fin cfg1.N, win1_3.index t = ![q0.val, 0] :=
  (by decide +kernel : ∀ q0 : Fin 25, ∃ t : Fin grid1.N, win1_3.index t = ![q0.val, 0])

/-- What point `t` writes back is block `t` of the activated matrix times the weights, of the arrays the launch found. -/
theorem flushed_eq (c : Dev nD) (t : Fin cfg1.N) :
    (dat1 V c).flushed 3 t = ((cfg1.win 3).blk t).view.read (Elt Ideal)
      (matProd (n := 50000) (k := 256) (p := 128) (biasRelu (n := 50000) (p := 256) (V c main_v43) (V c main_arg3)) (V c main_arg4)) := by
  show (cfg1.win 3).cut (grid1.coords t) ((dat1 V c).after 3 t) = _
  rw [after1_3]
  unfold out1_3
  rw [View.canon_unit_zero zero_offsets2]
  simp only [View.ld_unit_zero (S := S2000x256) zero_offsets2, View.ld_unit_zero (S := S256x128) zero_offsets2, View.ld_unit_zero (S := S256) zero_offsets1]
  funext j
  obtain ⟨r, q, rfl⟩ : ∃ (r : Fin 2000) (q : Fin 128), j = ix2 r q := ⟨j 0, j 1, eq_ix2 j⟩
  refine (stored_apply (iblk1 V c 1 t) (iblk1 V c 0 t) (iblk1 V c 2 t) r q).trans ?_
  obtain ⟨e0, e1, e2, e3, e4, e5, e6⟩ := block_indices t
  refine matProd_biasRelu_of_factors (n := 50000) (k := 256) (p := 128) (V c main_v43) (V c main_arg3) (V c main_arg4) (((cfg1.win 3).blk t).view.emb (ix2 r q))
    (fun l => iblk1 V c 0 t (ix2 r l)) (fun l => iblk1 V c 1 t (ix1 l)) (fun l => iblk1 V c 2 t (ix2 l q)) (fun l => ?_) (fun l => ?_) (fun l => ?_)
  · show V c main_v43 (((cfg1.win 0).blk t).view.emb (ix2 r l)) = V c main_v43 (ix2 (((cfg1.win 3).blk t).view.emb (ix2 r q) 0) l)
    refine congrArg (V c main_v43) ?_
    funext a; apply Fin.ext
    match a with
    | ⟨0, _⟩ => show win1_0.index t (0 : Fin 2) * 2000 + 1 * r.val = win1_3.index t (0 : Fin 2) * 2000 + 1 * r.val; omega
    | ⟨1, _⟩ => show win1_0.index t (1 : Fin 2) * 256 + 1 * l.val = l.val; omega
  · show V c main_arg3 (((cfg1.win 1).blk t).view.emb (ix1 l)) = V c main_arg3 (ix1 l)
    refine congrArg (V c main_arg3) ?_
    funext a; apply Fin.ext
    match a with
    | ⟨0, _⟩ => show win1_1.index t (0 : Fin 1) * 256 + 1 * l.val = l.val; omega
  · show V c main_arg4 (((cfg1.win 2).blk t).view.emb (ix2 l q)) = V c main_arg4 (ix2 l (((cfg1.win 3).blk t).view.emb (ix2 r q) 1))
    refine congrArg (V c main_arg4) ?_
    funext a; apply Fin.ext
    match a with
    | ⟨0, _⟩ => show win1_2.index t (0 : Fin 2) * 256 + 1 * l.val = l.val; omega
    | ⟨1, _⟩ => show win1_2.index t (1 : Fin 2) * 128 + 1 * q.val = win1_3.index t (1 : Fin 2) * 128 + 1 * q.val; omega

/-- An index of the result is in point `t`'s block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v44).slice (win1_3.rect t)).set ↔ _
  rw [View.set_slice_whole, Rect.mem_set_unit]
  exact Iff.rfl

/-- The 25 blocks of 2000 rows cover the result: row `r` is in the block of point `r / 2000`. -/
theorem covered (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := block_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- After the launch the result array holds the activated matrix times the weights, of the arrays as the launch found them. -/
theorem array_eq (c : Dev nD) :
    (dat1 V c).arrAt 3 cfg1.N
      = matProd (n := 50000) (k := 256) (p := 128) (biasRelu (n := 50000) (p := 256) (V c main_v43) (V c main_arg3)) (V c main_arg4) :=
  (dat1 V c).arrAt_eq_of_cover 3 _ (fun t _ => flushed_eq V c t) covered

end Cert.KernelIdeal.FusedLaunch

end
-- ==== Proof.BiasReluLaunch.lean ====
/-
  The third launch: a bias row added to a [50000, 128] matrix and the maximum with zero, 2000 rows per grid point.
  A point's block of the result depends on the same 2000 rows of the matrix and on the whole bias row, entry by entry,
  so every block is a block of ONE function of the arrays the launch finds — `biasRelu` — and the 25 blocks tile the
  result: after the launch the result array holds `biasRelu` of the matrix and the bias as the launch found them.
-/
import proofs.«180320_j43224550868016_1_alg».proof.Proof.Gen.KernelIdeal.Frame
import proofs.«180320_j43224550868016_1_alg».proof.Proof.Dense
import Idealize.ShloMosaic.Lib.Pipeline.Value
import Idealize.ShloMosaic.Lib.ValueLayout

set_option maxRecDepth 16384

noncomputable section

namespace Cert.KernelIdeal.BiasReluLaunch

open Idealize.ShloMosaic Idealize.ShloMosaic.TcCoe Idealize.SL.Sem Idealize.ShloMosaic.ValueIdx
open Idealize.ShloMosaic.Pipeline (Dat)
open Cert.KernelIdeal Cert.KernelIdeal.Gen Cert.Gcn

-- the contents of the TensorCore's buffers when the launch is entered: every statement is at any such contents
variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a; rfl

/-- The body's stored value at entry (r, q) of a block: the block's entry plus the bias at q, or zero if that is larger. -/
theorem stored_apply (b : Vec Ideal S128 .f32) (a : Vec Ideal S2000x128 .f32) (r : Fin 2000) (q : Fin 128) :
    k2_pay1 (F := Ideal) b a (ix2 r q) = max (a (ix2 r q) + b (ix1 q)) 0 := by
  show max (shapeCast S2000x128 a shapeCasts_S2000x128_S2000x128 (ix2 r q)
      + broadcastTo S2000x128 (shapeCast S1x128 b shapeCasts_S128_S1x128) broadcasts_S1x128_S2000x128 (ix2 r q)) (Ideal.ofBits .f32 0x00000000#32) = _
  rw [shapeCast_self, broadcastTo_1b_ab_apply, shapeCast_a_1a_apply, Ideal.ofBits_zero_f32]

/-- The windows' block indices over the grid: the matrix and the result move together, one block of rows per point; the
    bias stays. -/
theorem block_indices : ∀ t : Fin cfg2.N, win2_0.index t (0 : Fin 2) = win2_2.index t (0 : Fin 2)
    ∧ win2_0.index t (1 : Fin 2) = win2_2.index t (1 : Fin 2)
    ∧ win2_1.index t (0 : Fin 1) = 0
    ∧ win2_2.index t (1 : Fin 2) = 0
    ∧ win2_2.index t (0 : Fin 2) ≤ 24 :=
  (by decide +kernel : ∀ t : Fin grid2.N, _)

/-- Every block of 2000 rows is some point's. -/
theorem block_onto : ∀ q0 : Fin 25, ∃ t : Fin cfg2.N, win2_2.index t = ![q0.val, 0] :=
  (by decide +kernel : ∀ q0 : Fin 25, ∃ t : Fin grid2.N, win2_2.index t = ![q0.val, 0])

/-- What point `t` writes back is block `t` of `biasRelu` of the matrix and the bias the launch found. -/
theorem flushed_eq (c : Dev nD) (t : Fin cfg2.N) :
    (dat2 V c).flushed 2 t = ((cfg2.win 2).blk t).view.read (Elt Ideal) (biasRelu (n := 50000) (p := 128) (V c main_v57) (V c main_arg5)) := by
  show (cfg2.win 2).cut (grid2.coords t) ((dat2 V c).after 2 t) = _
  rw [after2_2]
  unfold out2_2
  rw [View.canon_unit_zero zero_offsets2]
  simp only [View.ld_unit_zero (S := S2000x128) zero_offsets2, View.ld_unit_zero (S := S128) zero_offsets1]
  funext j
  obtain ⟨r, q, rfl⟩ : ∃ (r : Fin 2000) (q : Fin 128), j = ix2 r q := ⟨j 0, j 1, eq_ix2 j⟩
  refine (stored_apply (iblk2 V c 1 t) (iblk2 V c 0 t) r q).trans ?_
  obtain ⟨e0, e1, e2, e3, e4⟩ := block_indices t
  refine biasRelu_of_terms (n := 50000) (p := 128) (V c main_v57) (V c main_arg5) (((cfg2.win 2).blk t).view.emb (ix2 r q)) _ _ ?_ ?_
  · show V c main_v57 (((cfg2.win 0).blk t).view.emb (ix2 r q)) = V c main_v57 (((cfg2.win 2).blk t).view.emb (ix2 r q))
    refine congrArg (V c main_v57) ?_
    funext a; apply Fin.ext
    match a with
    | ⟨0, _⟩ => show win2_0.index t (0 : Fin 2) * 2000 + 1 * r.val = win2_2.index t (0 : Fin 2) * 2000 + 1 * r.val; omega
    | ⟨1, _⟩ => show win2_0.index t (1 : Fin 2) * 128 + 1 * q.val = win2_2.index t (1 : Fin 2) * 128 + 1 * q.val; omega
  · show V c main_arg5 (((cfg2.win 1).blk t).view.emb (ix1 q)) = V c main_arg5 (ix1 (((cfg2.win 2).blk t).view.emb (ix2 r q) 1))
    refine congrArg (V c main_arg5) ?_
    funext a; apply Fin.ext
    match a with
    | ⟨0, _⟩ => show win2_1.index t (0 : Fin 1) * 128 + 1 * q.val = win2_2.index t (1 : Fin 2) * 128 + 1 * q.val; omega

/-- An index of the result is in point `t`'s block iff each coordinate is in the block's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v58).slice (win2_2.rect t)).set ↔ _
  rw [View.set_slice_whole, Rect.mem_set_unit]
  exact Iff.rfl

/-- The 25 blocks of 2000 rows cover the result: row `r` is in the block of point `r / 2000`. -/
theorem covered (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := block_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the launch the result array holds `biasRelu` of the matrix and the bias as the launch found them. -/
theorem array_eq (c : Dev nD) :
    (dat2 V c).arrAt 2 cfg2.N = biasRelu (n := 50000) (p := 128) (V c main_v57) (V c main_arg5) :=
  (dat2 V c).arrAt_eq_of_cover 2 _ (fun t _ => flushed_eq V c t) covered

end Cert.KernelIdeal.BiasReluLaunch

end
-- ==== Proof.KernelValue.lean ====
/-
  The idealized kernel program's result as the network of its arguments. The run's buffer contents are followed from the
  launch to the return, boundary by boundary: a stretch of host operations applies its named stage to what the buffers
  held (`HostStages`) and keeps every other buffer; a launch leaves in its result array one function of the arrays it
  found (`matProd`, `matProd (biasRelu …)`, `biasRelu`: the three launch modules) and keeps every other buffer. Composed,
  the result buffer ends at `Cert.Gcn.gcn` of the six argument arrays.
-/
import proofs.«180320_j43224550868016_1_alg».proof.Proof.Gen.KernelIdeal.Frame
import proofs.«180320_j43224550868016_1_alg».proof.Proof.KernelStages
import proofs.«180320_j43224550868016_1_alg».proof.Proof.MatmulLaunch
import proofs.«180320_j43224550868016_1_alg».proof.Proof.FusedLaunch
import proofs.«180320_j43224550868016_1_alg».proof.Proof.BiasReluLaunch
import proofs.«180320_j43224550868016_1_alg».proof.Proof.Model

set_option maxRecDepth 16384

noncomputable section

namespace Cert.KernelIdeal.Network

open Idealize.ShloMosaic Idealize.ShloMosaic.TcCoe Idealize.SL.Sem Idealize.ShloMosaic.StableHlo
open Cert.KernelIdeal Cert.KernelIdeal.Gen Cert.KernelIdeal.HostStages Cert.Gcn

variable (m : (ℓ : Loc nD τ sig) → Buf (Elt Ideal) ℓ) (ρ : Dev nD → PrngReg) (c : Dev nD)

/-! ## Entering the first launch -/

theorem src3 : W3 m ρ c (Proc.devRef .tc main_v3) = (edgeSrc (F := Ideal) (m ((c.tc : Thread nD τ).loc main_arg1))) := src_after (W0 m ρ c)
theorem dst3 : W3 m ρ c (Proc.devRef .tc main_v6) = (edgeDst (F := Ideal) (m ((c.tc : Thread nD τ).loc main_arg1))) := dst_after (W0 m ρ c)
theorem nrm3 : W3 m ρ c (Proc.devRef .tc main_v29) = (degNorm (F := Ideal) (edgeSrc (F := Ideal) (m ((c.tc : Thread nD τ).loc main_arg1))) (edgeDst (F := Ideal) (m ((c.tc : Thread nD τ).loc main_arg1)))) := norm_after (W0 m ρ c)
theorem arg0_3 : V3 m ρ c main_arg0 = (m ((c.tc : Thread nD τ).loc main_arg0)) := kept_first_main_arg0 (W0 m ρ c)
theorem arg2_3 : V3 m ρ c main_arg2 = (m ((c.tc : Thread nD τ).loc main_arg2)) := kept_first_main_arg2 (W0 m ρ c)
theorem arg3_3 : W3 m ρ c (Proc.devRef .tc main_arg3) = (m ((c.tc : Thread nD τ).loc main_arg3)) := kept_first_main_arg3 (W0 m ρ c)
theorem arg4_3 : W3 m ρ c (Proc.devRef .tc main_arg4) = (m ((c.tc : Thread nD τ).loc main_arg4)) := kept_first_main_arg4 (W0 m ρ c)
theorem arg5_3 : W3 m ρ c (Proc.devRef .tc main_arg5) = (m ((c.tc : Thread nD τ).loc main_arg5)) := kept_first_main_arg5 (W0 m ρ c)

/-! ## Leaving the first launch: the first product; everything else as entered -/

theorem prod4 : W4 m ρ c (Proc.devRef .tc main_v30) = (matProd (n := 50000) (k := 256) (p := 256) (m ((c.tc : Thread nD τ).loc main_arg0)) (m ((c.tc : Thread nD τ).loc main_arg2))) :=
  (W4_arr m ρ c 2).trans ((MatmulLaunch.array_eq (V3 m ρ) c).trans (by rw [arg0_3, arg2_3]))
theorem src4 : W4 m ρ c (Proc.devRef .tc main_v3) = (edgeSrc (F := Ideal) (m ((c.tc : Thread nD τ).loc main_arg1))) := (W4_of_ne m ρ c main_v3 (by decide)).trans (src3 m ρ c)
theorem dst4 : W4 m ρ c (Proc.devRef .tc main_v6) = (edgeDst (F := Ideal) (m ((c.tc : Thread nD τ).loc main_arg1))) := (W4_of_ne m ρ c main_v6 (by decide)).trans (dst3 m ρ c)
theorem nrm4 : W4 m ρ c (Proc.devRef .tc main_v29) = (degNorm (F := Ideal) (edgeSrc (F := Ideal) (m ((c.tc : Thread nD τ).loc main_arg1))) (edgeDst (F := Ideal) (m ((c.tc : Thread nD τ).loc main_arg1)))) := (W4_of_ne m ρ c main_v29 (by decide)).trans (nrm3 m ρ c)
theorem arg3_4 : W4 m ρ c (Proc.devRef .tc main_arg3) = (m ((c.tc : Thread nD τ).loc main_arg3)) := (W4_of_ne m ρ c main_arg3 (by decide)).trans (arg3_3 m ρ c)
theorem arg4_4 : W4 m ρ c (Proc.devRef .tc main_arg4) = (m ((c.tc : Thread nD τ).loc main_arg4)) := (W4_of_ne m ρ c main_arg4 (by decide)).trans (arg4_3 m ρ c)
theorem arg5_4 : W4 m ρ c (Proc.devRef .tc main_arg5) = (m ((c.tc : Thread nD τ).loc main_arg5)) := (W4_of_ne m ρ c main_arg5 (by decide)).trans (arg5_3 m ρ c)

/-! ## Entering the second launch: the first aggregation -/

theorem agg5 : V5 m ρ c main_v43 = (aggr256 (F := Ideal) (matProd (n := 50000) (k := 256) (p := 256) (m ((c.tc : Thread nD τ).loc main_arg0)) (m ((c.tc : Thread nD τ).loc main_arg2))) (edgeSrc (F := Ideal) (m ((c.tc : Thread nD τ).loc main_arg1))) (edgeDst (F := Ideal) (m ((c.tc : Thread nD τ).loc main_arg1))) (degNorm (F := Ideal) (edgeSrc (F := Ideal) (m ((c.tc : Thread nD τ).loc main_arg1))) (edgeDst (F := Ideal) (m ((c.tc : Thread nD τ).loc main_arg1))))) :=
  (agg_after (W4 m ρ c)).trans (by rw [prod4, src4, dst4, nrm4])
theorem src5 : W5 m ρ c (Proc.devRef .tc main_v3) = (edgeSrc (F := Ideal) (m ((c.tc : Thread nD τ).loc main_arg1))) := (kept_second_main_v3 (W4 m ρ c)).trans (src4 m ρ c)
theorem dst5 : W5 m ρ c (Proc.devRef .tc main_v6) = (edgeDst (F := Ideal) (m ((c.tc : Thread nD τ).loc main_arg1))) := (kept_second_main_v6 (W4 m ρ c)).trans (dst4 m ρ c)
theorem nrm5 : W5 m ρ c (Proc.devRef .tc main_v29) = (degNorm (F := Ideal) (edgeSrc (F := Ideal) (m ((c.tc : Thread nD τ).loc main_arg1))) (edgeDst (F := Ideal) (m ((c.tc : Thread nD τ).loc main_arg1)))) := (kept_second_main_v29 (W4 m ρ c)).trans (nrm4 m ρ c)
theorem arg3_5 : V5 m ρ c main_arg3 = (m ((c.tc : Thread nD τ).loc main_arg3)) := (kept_second_main_arg3 (W4 m ρ c)).trans (arg3_4 m ρ c)
theorem arg4_5 : V5 m ρ c main_arg4 = (m ((c.tc : Thread nD τ).loc main_arg4)) := (kept_second_main_arg4 (W4 m ρ c)).trans (arg4_4 m ρ c)
theorem arg5_5 : W5 m ρ c (Proc.devRef .tc main_arg5) = (m ((c.tc : Thread nD τ).loc main_arg5)) := (kept_second_main_arg5 (W4 m ρ c)).trans (arg5_4 m ρ c)

/-! ## Leaving the second launch: the second product, of the first layer's activation -/

theorem prod6 : W6 m ρ c (Proc.devRef .tc main_v44) = (matProd (n := 50000) (k := 256) (p := 128) (biasRelu (n := 50000) (p := 256) (aggr256 (F := Ideal) (matProd (n := 50000) (k := 256) (p := 256) (m ((c.tc : Thread nD τ).loc main_arg0)) (m ((c.tc : Thread nD τ).loc main_arg2))) (edgeSrc (F := Ideal) (m ((c.tc : Thread nD τ).loc main_arg1))) (edgeDst (F := Ideal) (m ((c.tc : Thread nD τ).loc main_arg1))) (degNorm (F := Ideal) (edgeSrc (F := Ideal) (m ((c.tc : Thread nD τ).loc main_arg1))) (edgeDst (F := Ideal) (m ((c.tc : Thread nD τ).loc main_arg1))))) (m ((c.tc : Thread nD τ).loc main_arg3))) (m ((c.tc : Thread nD τ).loc main_arg4))) :=
  (W6_arr m ρ c 3).trans ((FusedLaunch.array_eq (V5 m ρ) c).trans (by rw [agg5, arg3_5, arg4_5]))
theorem src6 : W6 m ρ c (Proc.devRef .tc main_v3) = (edgeSrc (F := Ideal) (m ((c.tc : Thread nD τ).loc main_arg1))) := (W6_of_ne m ρ c main_v3 (by decide)).trans (src5 m ρ c)
theorem dst6 : W6 m ρ c (Proc.devRef .tc main_v6) = (edgeDst (F := Ideal) (m ((c.tc : Thread nD τ).loc main_arg1))) := (W6_of_ne m ρ c main_v6 (by decide)).trans (dst5 m ρ c)
theorem nrm6 : W6 m ρ c (Proc.devRef .tc main_v29) = (degNorm (F := Ideal) (edgeSrc (F := Ideal) (m ((c.tc : Thread nD τ).loc main_arg1))) (edgeDst (F := Ideal) (m ((c.tc : Thread nD τ).loc main_arg1)))) := (W6_of_ne m ρ c main_v29 (by decide)).trans (nrm5 m ρ c)
theorem arg5_6 : W6 m ρ c (Proc.devRef .tc main_arg5) = (m ((c.tc : Thread nD τ).loc main_arg5)) := (W6_of_ne m ρ c main_arg5 (by decide)).trans (arg5_5 m ρ c)

/-! ## Entering the third launch: the second aggregation -/

theorem agg7 : V7 m ρ c main_v57 = (aggr128 (F := Ideal) (matProd (n := 50000) (k := 256) (p := 128) (biasRelu (n := 50000) (p := 256) (aggr256 (F := Ideal) (matProd (n := 50000) (k := 256) (p := 256) (m ((c.tc : Thread nD τ).loc main_arg0)) (m ((c.tc : Thread nD τ).loc main_arg2))) (edgeSrc (F := Ideal) (m ((c.tc : Thread nD τ).loc main_arg1))) (edgeDst (F := Ideal) (m ((c.tc : Thread nD τ).loc main_arg1))) (degNorm (F := Ideal) (edgeSrc (F := Ideal) (m ((c.tc : Thread nD τ).loc main_arg1))) (edgeDst (F := Ideal) (m ((c.tc : Thread nD τ).loc main_arg1))))) (m ((c.tc : Thread nD τ).loc main_arg3))) (m ((c.tc : Thread nD τ).loc main_arg4))) (edgeSrc (F := Ideal) (m ((c.tc : Thread nD τ).loc main_arg1))) (edgeDst (F := Ideal) (m ((c.tc : Thread nD τ).loc main_arg1))) (degNorm (F := Ideal) (edgeSrc (F := Ideal) (m ((c.tc : Thread nD τ).loc main_arg1))) (edgeDst (F := Ideal) (m ((c.tc : Thread nD τ).loc main_arg1))))) :=
  (agg_after' (W6 m ρ c)).trans (by rw [prod6, src6, dst6, nrm6])
theorem arg5_7 : V7 m ρ c main_arg5 = (m ((c.tc : Thread nD τ).loc main_arg5)) := (kept_third_main_arg5 (W6 m ρ c)).trans (arg5_6 m ρ c)

/-! ## Leaving the third launch: the result -/

/-- The result buffer at the last boundary is the network of the six argument arrays. -/
theorem result_eq : W8 m ρ c (Proc.devRef .tc main_v58)
    = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W8_arr m ρ c 2).trans ((BiasReluLaunch.array_eq (V7 m ρ) c).trans (by rw [agg7, arg5_7]; rfl))

end Cert.KernelIdeal.Network

end
-- ==== Proof.lean ====
/-
  A two-layer graph convolution over 50000 nodes and 850000 edges (the 800000 given ones and a self-loop per node):
  each layer multiplies the node features by a weight matrix, sums over the edges into every node the source node's
  row scaled by the symmetric degree normalisation, adds a bias and takes the maximum with zero.

  The kernel program computes the two matrix products and the bias-and-maximum stages in three pipelined launches, each
  over 25 blocks of 2000 rows (the second launch fuses the first layer's bias and maximum into the second product), with
  the gathers and scatter-adds as host operations between them; the reference computes everything by host operations.
  At the extended reals rounding to bfloat16 is the identity and a matrix product into a zero accumulator is the plain
  sum over the contracted axis, so each launch leaves the same entries the reference's `dot_general`, broadcast sum and
  maximum compute; the host operations around the launches are the reference's own, operation for operation, and are
  carried as named stages that are never opened. Both programs end at `Cert.Gcn.gcn` of their six arguments:
    * the kernel program: `Cert.KernelIdeal.Result.run_result` (the run, its result named) and
      `Cert.KernelIdeal.Network.result_eq` (that result is the network);
    * the reference: its run read back and `Cert.ReferenceIdeal.RefValue.result_eq`.
  No law of the extended reals beyond reading the operations entry by entry is used, so the precondition is not opened.
  The three frame claims are the generated frame runs (the reference's: its run with the result dropped); the
  idealization rewrote nothing, so `preserves` is `True`.
-/
import proofs.«180320_j43224550868016_1_alg».proof.Defs
import proofs.«180320_j43224550868016_1_alg».proof.Proof.Gen.Kernel
import proofs.«180320_j43224550868016_1_alg».proof.Proof.Gen.Kernel.Skeleton
import proofs.«180320_j43224550868016_1_alg».proof.Proof.Gen.Kernel.Launch
import proofs.«180320_j43224550868016_1_alg».proof.Proof.Gen.Kernel.Points
import proofs.«180320_j43224550868016_1_alg».proof.Proof.Gen.Kernel.Frame
import proofs.«180320_j43224550868016_1_alg».proof.Proof.Gen.KernelIdeal
import proofs.«180320_j43224550868016_1_alg».proof.Proof.Gen.KernelIdeal.Skeleton
import proofs.«180320_j43224550868016_1_alg».proof.Proof.Gen.KernelIdeal.Launch
import proofs.«180320_j43224550868016_1_alg».proof.Proof.Gen.KernelIdeal.Points
import proofs.«180320_j43224550868016_1_alg».proof.Proof.Gen.KernelIdeal.Frame
import proofs.«180320_j43224550868016_1_alg».proof.Proof.Gen.ReferenceIdeal
import proofs.«180320_j43224550868016_1_alg».proof.Proof.Gen.Pre_finite_inputs
import proofs.«180320_j43224550868016_1_alg».proof.Proof.RefRun
import proofs.«180320_j43224550868016_1_alg».proof.Proof.RefRead
import proofs.«180320_j43224550868016_1_alg».proof.Proof.RefValue
import proofs.«180320_j43224550868016_1_alg».proof.Proof.KernelRun
import proofs.«180320_j43224550868016_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- From memories agreeing on the six arguments both programs end with their result at the network of the arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Network.result_eq m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v65_eq, Cert.ReferenceIdeal.RefValue.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
